-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩
abbrev S8000x64 : Shape := ⟨2, ![8000, 64]⟩
abbrev S8000 : Shape := ⟨1, ![8000]⟩
abbrev S8000x1 : Shape := ⟨2, ![8000, 1]⟩
abbrev S5000x64 : Shape := ⟨2, ![5000, 64]⟩

abbrev nBuf : Space → Nat
  | .hbm => 55
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S64x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S64x64, .f32⟩
  | .hbm, ⟨54, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  broadcasts_S8000x1_S8000x64 : S8000x1.Broadcasts S8000x64
  bcast_S_S100000x64 : S_.BroadcastsInDim S100000x64 (![] : Fin 0 → Fin S100000x64.rank)
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1600000x64.size a
  hwx0_2 : ∀ i : grid0.Coords, EltTy.bits .f32 = 32 ∨ (Rect.block (s := S1600000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1600000x64.size a
  hwx2_2 : ∀ i : grid2.Coords, EltTy.bits .f32 = 32 ∨ (Rect.block (s := S1600000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v26) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S1600000, .f32⟩
  | .hbm, ⟨26, _⟩ => ⟨S1600000x1, .f32⟩
  | .hbm, ⟨27, _⟩ => ⟨S1600000x64, .f32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S64x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S1600000, .f32⟩
  | .hbm, ⟨59, _⟩ => ⟨S1600000x1, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S64x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.ProgramRun.lean ====
/-
  The kernel program's whole run, with its result named.

  The program is four pipelined kernels among stretches of host operations. Its buffers' contents at every boundary
  form a fold from the launch memory: a host stretch applies its operations, a kernel region replaces each of its
  arrays by what its grid points write back and leaves every other buffer alone. Every weakly fair execution ends
  with every buffer that outlives the kernels at the last stage of that fold; read at the result buffer this names
  the program's result, and read at the argument buffers it gives them back unchanged.
-/
import proofs.«123028_j68951404970016_1_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last stage
    of the fold of buffer contents through the program, and the five argument arrays end as launched. -/
theorem run_named : θ_run defs (onTc (τ := τ) (main (F := F))) ⟨m, fun _ => 0, ρ⟩ (fun r => ∀ c : Dev nD,
      r.2.mem ((c.tc : Thread nD τ).loc main_v39) = V8 m ρ c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v39 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Layers

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«123028_j68951404970016_1_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibRowDotScale.lean ====
/-
  Rows scaled by a dot product, on the extended reals. For two a×b arrays x and y, `rowDotScale x y` multiplies every
  entry of row p of x by the dot product of row p of x with row p of y: entry (p, q) is x(p, q) · Σ_k x(p, k) · y(p, k).
  A kernel body spells it as a product, a sum along each row, the column of sums re-shaped and stretched across the
  row, and a second product; the host spells it with a reduce from zero and two broadcasts. Both are this function,
  whatever the order in which the sums are taken; and since entry (p, q) depends on row p of x and y alone, a block of
  rows of x and y gives the same rows of the result. No finiteness is asked. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«123028_j68951404970016_1_alg».proof.Proof.LibRowReductions
import proofs.«123028_j68951404970016_1_alg».proof.Proof.LibHostRows

open scoped BigOperators

noncomputable section

namespace Cert.Lib.RowDotScale

open Idealize.ShloMosaic Idealize.ShloMosaic.ValueIdx Cert.Lib.RowReductions Cert.Lib.HostRows

variable {a b : Nat}

/-- Every entry of row p of x times the dot product of row p of x with row p of y. -/
def rowDotScale (x y : (⟨2, ![a, b]⟩ : Shape).Idx → EReal) : (⟨2, ![a, b]⟩ : Shape).Idx → EReal :=
  fun i => x i * ∑ k : Fin b, x (ix2 (i 0) k) * y (ix2 (i 0) k)

theorem rowDotScale_apply (x y : (⟨2, ![a, b]⟩ : Shape).Idx → EReal) (p : Fin a) (q : Fin b) :
    rowDotScale x y (ix2 p q) = x (ix2 p q) * ∑ k : Fin b, x (ix2 p k) * y (ix2 p k) := rfl

/-- A kernel body's spelling: the product x·y summed along each row, the vector of sums viewed as a column and
    stretched across the row, times x. -/
theorem body_eq (x y : FVec Ideal ⟨2, ![a, b]⟩ .f32)
    (hs : (⟨2, ![a, b]⟩ : Shape).ShapeCasts ⟨2, ![a, b]⟩)
    (hr : (⟨2, ![a, b]⟩ : Shape).Reduces [1] ⟨1, ![a]⟩) (hφ : FKind.Formats .f32)
    (hacc : (0x00000000#32 : BitVec (FTy.f32).bits) = FKind.add.neutral .f32 hφ)
    (hc : (⟨1, ![a]⟩ : Shape).ShapeCasts ⟨2, ![a, 1]⟩) (hb : (⟨2, ![a, 1]⟩ : Shape).Broadcasts ⟨2, ![a, b]⟩) :
    mulf (shapeCast ⟨2, ![a, b]⟩ x hs)
        (broadcastTo ⟨2, ![a, b]⟩ (shapeCast ⟨2, ![a, 1]⟩
          (multiReduction .add [1] ⟨1, ![a]⟩ (mulf (shapeCast ⟨2, ![a, b]⟩ x hs) (shapeCast ⟨2, ![a, b]⟩ y hs))
            0x00000000#32 hr hφ hacc) hc) hb)
      = rowDotScale x y := by
  funext i
  obtain ⟨p, q, rfl⟩ : ∃ (p : Fin a) (q : Fin b), i = ix2 p q := ⟨i 0, i 1, eq_ix2 i⟩
  rw [shapeCast_self, shapeCast_self, mulf_apply, broadcast_col_apply, shapeCast_col_apply, rowsum_apply]
  rfl

/-- The host's spelling: the product x·y reduced along each row from a zero initial value, the vector of sums
    broadcast to a column and the column across the row, times x. -/
theorem host_eq (x y : FVec Ideal ⟨2, ![a, b]⟩ .f32)
    (hr : (⟨2, ![a, b]⟩ : Shape).ReducesTo [1] ⟨1, ![a]⟩) (hu : 0 < (⟨0, ![]⟩ : Shape).numel)
    (h1 : (⟨1, ![a]⟩ : Shape).BroadcastsInDim ⟨2, ![a, 1]⟩ ![0])
    (h2 : (⟨2, ![a, 1]⟩ : Shape).BroadcastsInDim ⟨2, ![a, b]⟩ ![0, 1]) :
    mulf x (broadcastInDim ⟨2, ![a, b]⟩ ![0, 1] h2 (broadcastInDim ⟨2, ![a, 1]⟩ ![0] h1
        (Host.reduceAdd (mulf x y) (constant (F := Ideal) ⟨0, ![]⟩ .f32 0x00000000#32) hr hu)))
      = rowDotScale x y := by
  funext i
  obtain ⟨p, q, rfl⟩ : ∃ (p : Fin a) (q : Fin b), i = ix2 p q := ⟨i 0, i 1, eq_ix2 i⟩
  rw [mulf_apply, bcastInDim_cols_apply, bcastInDim_col_apply, host_rowsum_apply, constant_apply,
    Ideal.ofBits_zero_f32, zero_add]
  rfl

/-- Entry (p, q) depends on row p of x and of y alone: if row (j 0) of x' is row (i 0) of x, the same for y' and y,
    and x' at j is x at i, then the results agree at j and i. -/
theorem rowDotScale_rows {a' : Nat} (x y : (⟨2, ![a, b]⟩ : Shape).Idx → EReal)
    (x' y' : (⟨2, ![a', b]⟩ : Shape).Idx → EReal) (j : (⟨2, ![a', b]⟩ : Shape).Idx) (i : (⟨2, ![a, b]⟩ : Shape).Idx)
    (hx : ∀ k : Fin b, x' (ix2 (j 0) k) = x (ix2 (i 0) k)) (hy : ∀ k : Fin b, y' (ix2 (j 0) k) = y (ix2 (i 0) k))
    (hcol : (j 1).val = (i 1).val) :
    rowDotScale x' y' j = rowDotScale x y i := by
  obtain ⟨p, q, rfl⟩ : ∃ (p : Fin a') (q : Fin b), j = ix2 p q := ⟨j 0, j 1, eq_ix2 j⟩
  obtain ⟨r, s, rfl⟩ : ∃ (r : Fin a) (s : Fin b), i = ix2 r s := ⟨i 0, i 1, eq_ix2 i⟩
  have hqs : q = s := Fin.ext hcol
  subst hqs
  rw [rowDotScale_apply, rowDotScale_apply]
  have h0 : x' (ix2 p q) = x (ix2 r q) := hx q
  rw [h0]
  refine congrArg (x (ix2 r q) * ·) (Finset.sum_congr rfl fun k _ => ?_)
  have h1 : x' (ix2 p k) = x (ix2 r k) := hx k
  have h2 : y' (ix2 p k) = y (ix2 r k) := hy k
  rw [h1, h2]

end Cert.Lib.RowDotScale

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«123028_j68951404970016_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«123028_j68951404970016_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.EdgeBlocks0.lean ====
/-
  The per-edge stage of layer one, block by block.

  The kernel walks the 1,600,000 edges in 200 blocks of 8,000 rows. At a grid point it reads rows 8000·t … 8000·t + 7999
  of the two gathered feature arrays, multiplies every entry of a row of the first by the dot product of that row
  with the same row of the second, and writes the block back to the same rows of its output. An entry of the result
  depends on its own row of the two inputs alone, so the block written at a point is those rows of the whole-array
  function; the 200 blocks tile the output, so after the last point the output array is that function of the two
  input arrays as the kernel found them.
-/
import proofs.«123028_j68951404970016_1_alg».proof.Proof.Gen.KernelIdeal.Frame
import proofs.«123028_j68951404970016_1_alg».proof.Proof.LibRowDotScale
import proofs.«123028_j68951404970016_1_alg».proof.Proof.LibRowBlocks
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.RowDotScale Cert.Lib.RowBlocks

-- the buffers' contents when the kernel is entered
variable (V : (c : Dev nD) → (b : Ref sig .tc) → Buf (Elt Ideal) ((c : Thread nD τ).loc b))

/-- What the body stores is the row-scaling function of the two blocks it loaded. -/
theorem edge_payload0 (x0 x1 : Vec Ideal S8000x64 .f32) :
    k0_pay1 x0 x1 = rowDotScale (a := 8000) (b := 64) x0 x1 := by
  unfold k0_pay1
  exact body_eq (a := 8000) (b := 64) x0 x1 _ _ _ _ _ _

/-- At point t all three windows sit at block row t, block column 0. -/
theorem edge_index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is rows 8000·t … 8000·t + 7999 of the row-scaling function of the two input arrays. -/
theorem edge_flushed0 (c : Dev nD) (t : Fin cfg0.N) :
    (dat0 V c).flushed 2 t = ((cfg0.win 2).blk t).view.read (Elt Ideal)
      (rowDotScale (a := 1600000) (b := 64) (V c main_v6) (V c main_v13)) := by
  show (cfg0.win 2).cut (grid0.coords t) ((dat0 V c).after 2 t) = _
  rw [after0_2]
  unfold out0_2
  rw [View.canon_unit_zero zero_offset2]
  simp only [View.ld_unit_zero (S := S8000x64) zero_offset2]
  rw [edge_payload0]
  obtain ⟨e0, e1, e2, e3, e4, e5⟩ := edge_index0 t
  funext j
  show rowDotScale (a := 8000) (b := 64) (iblk0 V c 0 t) (iblk0 V c 1 t) j
    = rowDotScale (a := 1600000) (b := 64) (V c main_v6) (V c main_v13) (((cfg0.win 2).blk t).view.emb j)
  have hj0 : (j 0).val < 8000 := (j 0).isLt
  refine rowDotScale_rows (a := 1600000) (b := 64) (a' := 8000) (V c main_v6) (V c main_v13) (iblk0 V c 0 t) (iblk0 V c 1 t) j
    (((cfg0.win 2).blk t).view.emb j) ?_ ?_ ?_
  · intro k
    show V c main_v6 (((cfg0.win 0).blk t).view.emb (ix2 (j 0) k))
      = V c main_v6 (ix2 ((((cfg0.win 2).blk t).view.emb j) 0) k)
    refine congrArg _ (funext fun a => Fin.ext ?_)
    match a with
    | ⟨0, _⟩ =>
      show win0_0.index t (0 : Fin 2) * 8000 + 1 * (j 0).val = win0_2.index t (0 : Fin 2) * 8000 + 1 * (j 0).val
      omega
    | ⟨1, _⟩ =>
      show win0_0.index t (1 : Fin 2) * 64 + 1 * k.val = k.val
      omega
  · intro k
    show V c main_v13 (((cfg0.win 1).blk t).view.emb (ix2 (j 0) k))
      = V c main_v13 (ix2 ((((cfg0.win 2).blk t).view.emb j) 0) k)
    refine congrArg _ (funext fun a => Fin.ext ?_)
    match a with
    | ⟨0, _⟩ =>
      show win0_1.index t (0 : Fin 2) * 8000 + 1 * (j 0).val = win0_2.index t (0 : Fin 2) * 8000 + 1 * (j 0).val
      omega
    | ⟨1, _⟩ =>
      show win0_1.index t (1 : Fin 2) * 64 + 1 * k.val = k.val
      omega
  · show (j 1).val = win0_2.index t (1 : Fin 2) * 64 + 1 * (j 1).val
    omega

/-- An index of the output array lies in point t's block when each coordinate lies in the block's range. -/
theorem edge_mem_blk0 (t : Fin cfg0.N) (i : S1600000x64.Idx) :
    i ∈ ((cfg0.win 2).blk t).view.set ↔ ∀ a : Fin 2, win0_2.index t a * S8000x64.size a ≤ (i a).val
      ∧ (i a).val < win0_2.index t a * S8000x64.size a + S8000x64.size a := by
  show i ∈ ((View.whole main_v14).slice (win0_2.rect t)).set ↔ _
  rw [View.set_slice_whole, Rect.mem_set_unit]
  exact Iff.rfl

/-- Row r of the output lies in the block of point r / 8000: the blocks tile the array. -/
theorem edge_cover0 (i : S1600000x64.Idx) :
    ∃ t : Fin cfg0.N, (cfg0.win 2).flush t = true ∧ i ∈ ((cfg0.win 2).blk t).view.set := by
  have hi0 : (i 0).val < 1600000 := (i 0).isLt
  have hi1 : (i 1).val < 64 := (i 1).isLt
  have hN : cfg0.N = 200 := N_0
  obtain ⟨t, ht⟩ : ∃ t : Fin cfg0.N, t.val = (i 0).val / 8000 := ⟨⟨(i 0).val / 8000, by rw [hN]; omega⟩, rfl⟩
  obtain ⟨e0, e1, e2, e3, e4, e5⟩ := edge_index0 t
  refine ⟨t, flush0_2 t, ?_⟩
  rw [edge_mem_blk0]
  intro a
  match a with
  | ⟨0, _⟩ =>
    show win0_2.index t (0 : Fin 2) * 8000 ≤ (i 0).val ∧ (i 0).val < win0_2.index t (0 : Fin 2) * 8000 + 8000
    omega
  | ⟨1, _⟩ =>
    show win0_2.index t (1 : Fin 2) * 64 ≤ (i 1).val ∧ (i 1).val < win0_2.index t (1 : Fin 2) * 64 + 64
    omega

/-- After the last point the output array is the row-scaling function of the two input arrays. -/
theorem edge_final0 (c : Dev nD) :
    (dat0 V c).arrAt 2 cfg0.N = rowDotScale (a := 1600000) (b := 64) (V c main_v6) (V c main_v13) :=
  (dat0 V c).arrAt_eq_of_cover 2 _ (fun t _ => edge_flushed0 V c t) edge_cover0

end Cert.KernelIdeal.Layers

end
-- ==== Proof.EdgeBlocks2.lean ====
/-
  The per-edge stage of layer two, block by block.

  The kernel walks the 1,600,000 edges in 200 blocks of 8,000 rows. At a grid point it reads rows 8000·t … 8000·t + 7999
  of the two gathered feature arrays, multiplies every entry of a row of the first by the dot product of that row
  with the same row of the second, and writes the block back to the same rows of its output. An entry of the result
  depends on its own row of the two inputs alone, so the block written at a point is those rows of the whole-array
  function; the 200 blocks tile the output, so after the last point the output array is that function of the two
  input arrays as the kernel found them.
-/
import proofs.«123028_j68951404970016_1_alg».proof.Proof.Gen.KernelIdeal.Frame
import proofs.«123028_j68951404970016_1_alg».proof.Proof.LibRowDotScale
import proofs.«123028_j68951404970016_1_alg».proof.Proof.LibRowBlocks
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.RowDotScale Cert.Lib.RowBlocks

-- the buffers' contents when the kernel is entered
variable (V : (c : Dev nD) → (b : Ref sig .tc) → Buf (Elt Ideal) ((c : Thread nD τ).loc b))

/-- What the body stores is the row-scaling function of the two blocks it loaded. -/
theorem edge_payload2 (x0 x1 : Vec Ideal S8000x64 .f32) :
    k2_pay1 x0 x1 = rowDotScale (a := 8000) (b := 64) x0 x1 := by
  unfold k2_pay1
  exact body_eq (a := 8000) (b := 64) x0 x1 _ _ _ _ _ _

/-- At point t all three windows sit at block row t, block column 0. -/
theorem edge_index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is rows 8000·t … 8000·t + 7999 of the row-scaling function of the two input arrays. -/
theorem edge_flushed2 (c : Dev nD) (t : Fin cfg2.N) :
    (dat2 V c).flushed 2 t = ((cfg2.win 2).blk t).view.read (Elt Ideal)
      (rowDotScale (a := 1600000) (b := 64) (V c main_v26) (V c main_v33)) := by
  show (cfg2.win 2).cut (grid2.coords t) ((dat2 V c).after 2 t) = _
  rw [after2_2]
  unfold out2_2
  rw [View.canon_unit_zero zero_offset2]
  simp only [View.ld_unit_zero (S := S8000x64) zero_offset2]
  rw [edge_payload2]
  obtain ⟨e0, e1, e2, e3, e4, e5⟩ := edge_index2 t
  funext j
  show rowDotScale (a := 8000) (b := 64) (iblk2 V c 0 t) (iblk2 V c 1 t) j
    = rowDotScale (a := 1600000) (b := 64) (V c main_v26) (V c main_v33) (((cfg2.win 2).blk t).view.emb j)
  have hj0 : (j 0).val < 8000 := (j 0).isLt
  refine rowDotScale_rows (a := 1600000) (b := 64) (a' := 8000) (V c main_v26) (V c main_v33) (iblk2 V c 0 t) (iblk2 V c 1 t) j
    (((cfg2.win 2).blk t).view.emb j) ?_ ?_ ?_
  · intro k
    show V c main_v26 (((cfg2.win 0).blk t).view.emb (ix2 (j 0) k))
      = V c main_v26 (ix2 ((((cfg2.win 2).blk t).view.emb j) 0) k)
    refine congrArg _ (funext fun a => Fin.ext ?_)
    match a with
    | ⟨0, _⟩ =>
      show win2_0.index t (0 : Fin 2) * 8000 + 1 * (j 0).val = win2_2.index t (0 : Fin 2) * 8000 + 1 * (j 0).val
      omega
    | ⟨1, _⟩ =>
      show win2_0.index t (1 : Fin 2) * 64 + 1 * k.val = k.val
      omega
  · intro k
    show V c main_v33 (((cfg2.win 1).blk t).view.emb (ix2 (j 0) k))
      = V c main_v33 (ix2 ((((cfg2.win 2).blk t).view.emb j) 0) k)
    refine congrArg _ (funext fun a => Fin.ext ?_)
    match a with
    | ⟨0, _⟩ =>
      show win2_1.index t (0 : Fin 2) * 8000 + 1 * (j 0).val = win2_2.index t (0 : Fin 2) * 8000 + 1 * (j 0).val
      omega
    | ⟨1, _⟩ =>
      show win2_1.index t (1 : Fin 2) * 64 + 1 * k.val = k.val
      omega
  · show (j 1).val = win2_2.index t (1 : Fin 2) * 64 + 1 * (j 1).val
    omega

/-- An index of the output array lies in point t's block when each coordinate lies in the block's range. -/
theorem edge_mem_blk2 (t : Fin cfg2.N) (i : S1600000x64.Idx) :
    i ∈ ((cfg2.win 2).blk t).view.set ↔ ∀ a : Fin 2, win2_2.index t a * S8000x64.size a ≤ (i a).val
      ∧ (i a).val < win2_2.index t a * S8000x64.size a + S8000x64.size a := by
  show i ∈ ((View.whole main_v34).slice (win2_2.rect t)).set ↔ _
  rw [View.set_slice_whole, Rect.mem_set_unit]
  exact Iff.rfl

/-- Row r of the output lies in the block of point r / 8000: the blocks tile the array. -/
theorem edge_cover2 (i : S1600000x64.Idx) :
    ∃ t : Fin cfg2.N, (cfg2.win 2).flush t = true ∧ i ∈ ((cfg2.win 2).blk t).view.set := by
  have hi0 : (i 0).val < 1600000 := (i 0).isLt
  have hi1 : (i 1).val < 64 := (i 1).isLt
  have hN : cfg2.N = 200 := N_2
  obtain ⟨t, ht⟩ : ∃ t : Fin cfg2.N, t.val = (i 0).val / 8000 := ⟨⟨(i 0).val / 8000, by rw [hN]; omega⟩, rfl⟩
  obtain ⟨e0, e1, e2, e3, e4, e5⟩ := edge_index2 t
  refine ⟨t, flush2_2 t, ?_⟩
  rw [edge_mem_blk2]
  intro a
  match a with
  | ⟨0, _⟩ =>
    show win2_2.index t (0 : Fin 2) * 8000 ≤ (i 0).val ∧ (i 0).val < win2_2.index t (0 : Fin 2) * 8000 + 8000
    omega
  | ⟨1, _⟩ =>
    show win2_2.index t (1 : Fin 2) * 64 ≤ (i 1).val ∧ (i 1).val < win2_2.index t (1 : Fin 2) * 64 + 64
    omega

/-- After the last point the output array is the row-scaling function of the two input arrays. -/
theorem edge_final2 (c : Dev nD) :
    (dat2 V c).arrAt 2 cfg2.N = rowDotScale (a := 1600000) (b := 64) (V c main_v26) (V c main_v33) :=
  (dat2 V c).arrAt_eq_of_cover 2 _ (fun t _ => edge_flushed2 V c t) edge_cover2

end Cert.KernelIdeal.Layers

end
-- ==== Proof.LibProductRelu.lean ====
/-
  A matrix product clamped below at the zero word, on the extended reals. `productRelu A B` is, entry by entry, the
  larger of the product of an m×k by a k×n array at that entry and the value of the all-zero bit pattern. A kernel
  body spells it as a product of the two operands (each first carried to a narrower format, which changes nothing
  here) accumulated into zeros and joined with a splat of the zero word; the host spells it as a dot_general joined
  with a broadcast of the zero word. Both are this function; and an entry depends on one row of A, so a block of rows
  of A gives the same rows of the result. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«123028_j68951404970016_1_alg».proof.Proof.LibMatProd
import proofs.«123028_j68951404970016_1_alg».proof.Proof.LibRowBlocks
import proofs.«123028_j68951404970016_1_alg».proof.Proof.LibRowReductions

open scoped BigOperators

noncomputable section

namespace Cert.Lib.ProductRelu

open Idealize.ShloMosaic Idealize.ShloMosaic.ValueIdx Cert.Lib.MatProd Cert.Lib.RowBlocks

variable {m k n : Nat}

/-- The product of A and B, each entry joined with the value of the zero word. -/
def productRelu (A : (⟨2, ![m, k]⟩ : Shape).Idx → EReal) (B : (⟨2, ![k, n]⟩ : Shape).Idx → EReal) :
    (⟨2, ![m, n]⟩ : Shape).Idx → EReal :=
  fun i => max (matProd A B i) (Ideal.ofBits .f32 0x00000000#32)

/-- A kernel body's spelling: both operands re-shaped in place and carried to a narrower format, multiplied into a
    zero accumulator, joined with a splat of the zero word. -/
theorem body_eq {ψ : FTy} (hψ : ψ.bits < (FTy.f32).bits)
    (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ .f32) (B : FVec Ideal ⟨2, ![k, n]⟩ .f32)
    (hA : (⟨2, ![m, k]⟩ : Shape).ShapeCasts ⟨2, ![m, k]⟩) (hB : (⟨2, ![k, n]⟩ : Shape).ShapeCasts ⟨2, ![k, n]⟩) :
    maximumf (matmul d prec (truncf ψ (shapeCast ⟨2, ![m, k]⟩ A hA) hψ) (truncf ψ (shapeCast ⟨2, ![k, n]⟩ B hB) hψ)
        (constant ⟨2, ![m, n]⟩ .f32 0x00000000#32))
      (broadcast ⟨2, ![m, n]⟩ (Scalar.ofBits (F := Ideal) .f32 0x00000000#32))
      = productRelu A B := by
  rw [shapeCast_self, shapeCast_self, matmul_zero_eq_matProd d hlc hrc hln hrn hlb hrb prec]
  rfl

/-- The host's spelling: a plain dot_general joined with a broadcast of the zero word. -/
theorem host_eq (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ .f32) (B : FVec Ideal ⟨2, ![k, n]⟩ .f32)
    (h0 : (⟨0, ![]⟩ : Shape).BroadcastsInDim ⟨2, ![m, n]⟩ ![]) :
    maximumf (Host.dotGeneral d prec A B)
        (broadcastInDim ⟨2, ![m, n]⟩ ![] h0 (constant (F := Ideal) ⟨0, ![]⟩ .f32 0x00000000#32))
      = productRelu A B := by
  funext i
  rw [maximumf_apply, Cert.Lib.RowReductions.bcastInDim_scalar_apply, constant_apply]
  show max (FloatOps.dotGeneral d prec .single A B i) _ = _
  rw [dotGeneral_eq_matProd d hlc hrc hln hrn hlb hrb prec .single A B]
  rfl

/-- An entry depends on one row of A: if row (j 0) of A' is row (i 0) of A and j and i have the same column, the
    results agree at j and i. -/
theorem productRelu_rows {m' : Nat} (A : (⟨2, ![m, k]⟩ : Shape).Idx → EReal) (A' : (⟨2, ![m', k]⟩ : Shape).Idx → EReal)
    (B : (⟨2, ![k, n]⟩ : Shape).Idx → EReal) (j : (⟨2, ![m', n]⟩ : Shape).Idx) (i : (⟨2, ![m, n]⟩ : Shape).Idx)
    (hA : ∀ c : Fin k, A' (ix2 (⟨(j 0).val, idx2_lt0 j⟩ : Fin m') c) = A (ix2 (⟨(i 0).val, idx2_lt0 i⟩ : Fin m) c))
    (hcol : (j 1).val = (i 1).val) :
    productRelu A' B j = productRelu A B i := by
  unfold productRelu
  rw [matProd_rows A A' B j i hA hcol]

end Cert.Lib.ProductRelu

end
-- ==== Proof.NodeBlocks1.lean ====
/-
  The per-node stage of layer one, block by block.

  The kernel walks the 100,000 nodes in 20 blocks of 5,000 rows. At a grid point it reads rows 5000·t … 5000·t + 4999
  of the aggregated features and the whole 64×64 weight array, multiplies them and joins every entry with the zero
  word, and writes the block back to the same rows of its output. An entry of a product depends on one row of the left
  operand, so the block written at a point is those rows of the whole-array function; the 20 blocks tile the output, so
  after the last point the output array is that function of the two input arrays as the kernel found them.
-/
import proofs.«123028_j68951404970016_1_alg».proof.Proof.Gen.KernelIdeal.Frame
import proofs.«123028_j68951404970016_1_alg».proof.Proof.LibProductRelu
import proofs.«123028_j68951404970016_1_alg».proof.Proof.LibRowBlocks
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.ProductRelu Cert.Lib.RowBlocks

-- the buffers' contents when the kernel is entered
variable (V : (c : Dev nD) → (b : Ref sig .tc) → Buf (Elt Ideal) ((c : Thread nD τ).loc b))

/-- What the body stores is the clamped product of the two blocks it loaded. -/
theorem node_payload1 (x0 : Vec Ideal S5000x64 .f32) (x1 : Vec Ideal S64x64 .f32) :
    k1_pay1 x0 x1 = productRelu (m := 5000) (k := 64) (n := 64) x0 x1 := by
  unfold k1_pay1
  exact body_eq (m := 5000) (k := 64) (n := 64) _ dot_S5000x64_S64x64_S5000x64_1_0_0_1_n_n rfl rfl rfl rfl rfl rfl none
    x0 x1 _ _

/-- At point t the feature window and the output window sit at block row t, the weight window at the one block. -/
theorem node_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The weight window's block at any point is the whole weight array. -/
theorem node_weights1 (c : Dev nD) (t : Fin cfg1.N) :
    (iblk1 V c 1 t : S64x64.Idx → EReal) = V c main_v18 := by
  obtain ⟨e0, e1, e2, e3, e4, e5⟩ := node_index1 t
  funext y
  show V c main_v18 (((cfg1.win 1).blk t).view.emb y) = V c main_v18 y
  refine congrArg _ (funext fun a => Fin.ext ?_)
  match a with
  | ⟨0, _⟩ =>
    show win1_1.index t (0 : Fin 2) * 64 + 1 * (y 0).val = (y 0).val
    omega
  | ⟨1, _⟩ =>
    show win1_1.index t (1 : Fin 2) * 64 + 1 * (y 1).val = (y 1).val
    omega

/-- What point t writes back is rows 5000·t … 5000·t + 4999 of the clamped product of the two input arrays. -/
theorem node_flushed1 (c : Dev nD) (t : Fin cfg1.N) :
    (dat1 V c).flushed 2 t = ((cfg1.win 2).blk t).view.read (Elt Ideal)
      (productRelu (m := 100000) (k := 64) (n := 64) (V c main_v17) (V c main_v18)) := by
  show (cfg1.win 2).cut (grid1.coords t) ((dat1 V c).after 2 t) = _
  rw [after1_2]
  unfold out1_2
  rw [View.canon_unit_zero zero_offset2]
  simp only [View.ld_unit_zero (S := S5000x64) zero_offset2, View.ld_unit_zero (S := S64x64) zero_offset2]
  rw [node_payload1]
  obtain ⟨e0, e1, e2, e3, e4, e5⟩ := node_index1 t
  funext j
  show productRelu (m := 5000) (k := 64) (n := 64) (iblk1 V c 0 t) (iblk1 V c 1 t) j
    = productRelu (m := 100000) (k := 64) (n := 64) (V c main_v17) (V c main_v18) (((cfg1.win 2).blk t).view.emb j)
  rw [node_weights1 V c t]
  have hj0 : (j 0).val < 5000 := (j 0).isLt
  refine productRelu_rows (m := 100000) (k := 64) (n := 64) (m' := 5000) (V c main_v17) (iblk1 V c 0 t) (V c main_v18) j
    (((cfg1.win 2).blk t).view.emb j) ?_ ?_
  · intro k
    show V c main_v17 (((cfg1.win 0).blk t).view.emb (ix2 (⟨(j 0).val, idx2_lt0 j⟩ : Fin 5000) k))
      = V c main_v17 (ix2 (⟨((((cfg1.win 2).blk t).view.emb j) 0).val, idx2_lt0 _⟩ : Fin 100000) k)
    refine congrArg _ (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 64 + 1 * k.val = k.val
      omega
  · show (j 1).val = win1_2.index t (1 : Fin 2) * 64 + 1 * (j 1).val
    omega

/-- An index of the output array lies in point t's block when each coordinate lies in the block's range. -/
theorem node_mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v19).slice (win1_2.rect t)).set ↔ _
  rw [View.set_slice_whole, Rect.mem_set_unit]
  exact Iff.rfl

/-- Row r of the output lies in the block of point r / 5000: the blocks tile the array. -/
theorem node_cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := node_index1 t
  refine ⟨t, flush1_2 t, ?_⟩
  rw [node_mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- After the last point the output array is the clamped product of the two input arrays. -/
theorem node_final1 (c : Dev nD) :
    (dat1 V c).arrAt 2 cfg1.N = productRelu (m := 100000) (k := 64) (n := 64) (V c main_v17) (V c main_v18) :=
  (dat1 V c).arrAt_eq_of_cover 2 _ (fun t _ => node_flushed1 V c t) node_cover1

end Cert.KernelIdeal.Layers

end
-- ==== Proof.NodeBlocks3.lean ====
/-
  The per-node stage of layer two, block by block.

  The kernel walks the 100,000 nodes in 20 blocks of 5,000 rows. At a grid point it reads rows 5000·t … 5000·t + 4999
  of the aggregated features and the whole 64×64 weight array, multiplies them and joins every entry with the zero
  word, and writes the block back to the same rows of its output. An entry of a product depends on one row of the left
  operand, so the block written at a point is those rows of the whole-array function; the 20 blocks tile the output, so
  after the last point the output array is that function of the two input arrays as the kernel found them.
-/
import proofs.«123028_j68951404970016_1_alg».proof.Proof.Gen.KernelIdeal.Frame
import proofs.«123028_j68951404970016_1_alg».proof.Proof.LibProductRelu
import proofs.«123028_j68951404970016_1_alg».proof.Proof.LibRowBlocks
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.ProductRelu Cert.Lib.RowBlocks

-- the buffers' contents when the kernel is entered
variable (V : (c : Dev nD) → (b : Ref sig .tc) → Buf (Elt Ideal) ((c : Thread nD τ).loc b))

/-- What the body stores is the clamped product of the two blocks it loaded. -/
theorem node_payload3 (x0 : Vec Ideal S5000x64 .f32) (x1 : Vec Ideal S64x64 .f32) :
    k3_pay1 x0 x1 = productRelu (m := 5000) (k := 64) (n := 64) x0 x1 := by
  unfold k3_pay1
  exact body_eq (m := 5000) (k := 64) (n := 64) _ dot_S5000x64_S64x64_S5000x64_1_0_0_1_n_n rfl rfl rfl rfl rfl rfl none
    x0 x1 _ _

/-- At point t the feature window and the output window sit at block row t, the weight window at the one block. -/
theorem node_index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The weight window's block at any point is the whole weight array. -/
theorem node_weights3 (c : Dev nD) (t : Fin cfg3.N) :
    (iblk3 V c 1 t : S64x64.Idx → EReal) = V c main_v38 := by
  obtain ⟨e0, e1, e2, e3, e4, e5⟩ := node_index3 t
  funext y
  show V c main_v38 (((cfg3.win 1).blk t).view.emb y) = V c main_v38 y
  refine congrArg _ (funext fun a => Fin.ext ?_)
  match a with
  | ⟨0, _⟩ =>
    show win3_1.index t (0 : Fin 2) * 64 + 1 * (y 0).val = (y 0).val
    omega
  | ⟨1, _⟩ =>
    show win3_1.index t (1 : Fin 2) * 64 + 1 * (y 1).val = (y 1).val
    omega

/-- What point t writes back is rows 5000·t … 5000·t + 4999 of the clamped product of the two input arrays. -/
theorem node_flushed3 (c : Dev nD) (t : Fin cfg3.N) :
    (dat3 V c).flushed 2 t = ((cfg3.win 2).blk t).view.read (Elt Ideal)
      (productRelu (m := 100000) (k := 64) (n := 64) (V c main_v37) (V c main_v38)) := by
  show (cfg3.win 2).cut (grid3.coords t) ((dat3 V c).after 2 t) = _
  rw [after3_2]
  unfold out3_2
  rw [View.canon_unit_zero zero_offset2]
  simp only [View.ld_unit_zero (S := S5000x64) zero_offset2, View.ld_unit_zero (S := S64x64) zero_offset2]
  rw [node_payload3]
  obtain ⟨e0, e1, e2, e3, e4, e5⟩ := node_index3 t
  funext j
  show productRelu (m := 5000) (k := 64) (n := 64) (iblk3 V c 0 t) (iblk3 V c 1 t) j
    = productRelu (m := 100000) (k := 64) (n := 64) (V c main_v37) (V c main_v38) (((cfg3.win 2).blk t).view.emb j)
  rw [node_weights3 V c t]
  have hj0 : (j 0).val < 5000 := (j 0).isLt
  refine productRelu_rows (m := 100000) (k := 64) (n := 64) (m' := 5000) (V c main_v37) (iblk3 V c 0 t) (V c main_v38) j
    (((cfg3.win 2).blk t).view.emb j) ?_ ?_
  · intro k
    show V c main_v37 (((cfg3.win 0).blk t).view.emb (ix2 (⟨(j 0).val, idx2_lt0 j⟩ : Fin 5000) k))
      = V c main_v37 (ix2 (⟨((((cfg3.win 2).blk t).view.emb j) 0).val, idx2_lt0 _⟩ : Fin 100000) k)
    refine congrArg _ (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 64 + 1 * k.val = k.val
      omega
  · show (j 1).val = win3_2.index t (1 : Fin 2) * 64 + 1 * (j 1).val
    omega

/-- An index of the output array lies in point t's block when each coordinate lies in the block's range. -/
theorem node_mem_blk3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v39).slice (win3_2.rect t)).set ↔ _
  rw [View.set_slice_whole, Rect.mem_set_unit]
  exact Iff.rfl

/-- Row r of the output lies in the block of point r / 5000: the blocks tile the array. -/
theorem node_cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4, e5⟩ := node_index3 t
  refine ⟨t, flush3_2 t, ?_⟩
  rw [node_mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- After the last point the output array is the clamped product of the two input arrays. -/
theorem node_final3 (c : Dev nD) :
    (dat3 V c).arrAt 2 cfg3.N = productRelu (m := 100000) (k := 64) (n := 64) (V c main_v37) (V c main_v38) :=
  (dat3 V c).arrAt_eq_of_cover 2 _ (fun t _ => node_flushed3 V c t) node_cover3

end Cert.KernelIdeal.Layers

end
-- ==== Proof.ProgramValue.lean ====
/-
  The kernel program's result as a function of its arguments.

  The program's buffers are followed through its eight segments. A host stretch gathers, for every edge, the feature
  rows of its two end points; the first kernel weighs each source row by the dot product of the two; a host stretch
  sums the weighed rows into their destination nodes and transposes the weights; the second kernel multiplies and
  clamps at zero. That is one layer, and the program is two of them, the second reading the first one's result. Each
  kernel's output array is taken from its block-by-block module, each host stretch is read operation by operation,
  and an argument array read late in the program is walked back to the launch memory: no stretch and no kernel writes
  it. Gathers and scatter-adds are carried as they are printed, never opened.
-/
import proofs.«123028_j68951404970016_1_alg».proof.Proof.Gen.KernelIdeal.Frame
import proofs.«123028_j68951404970016_1_alg».proof.Proof.EdgeBlocks0
import proofs.«123028_j68951404970016_1_alg».proof.Proof.EdgeBlocks2
import proofs.«123028_j68951404970016_1_alg».proof.Proof.NodeBlocks1
import proofs.«123028_j68951404970016_1_alg».proof.Proof.NodeBlocks3
import Idealize.ShloMosaic.Lib.StableHlo.Run

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen Cert.Lib.RowDotScale Cert.Lib.ProductRelu

/-- Node features, edge features, edge end points and weights, as the program's buffers hold them. -/
abbrev Nodes := FVec Ideal S100000x64 .f32
abbrev Edges := FVec Ideal S1600000x64 .f32
abbrev EdgeEnds := (⟨S1600000, .i32⟩ : BufTy).Contents (Elt Ideal)
abbrev Weights := FVec Ideal S64x64 .f32

/-- For every edge the feature row of the node its end point names, a negative end point first moved up by the number
    of nodes. -/
def gatherRows (h : Nodes) (s : EdgeEnds) : Edges :=
  Host.gather gather_S100000x64_S1600000x1_S1600000x64_1_0_n_n_0_1_164 h
    (broadcastInDim S1600000x1 ![0] bcast_S1600000_S1600000x1_0
      (select (cmpi .slt s (broadcastInDim S1600000 ![] bcast_S_S1600000 (constantI S_ 32 0#32)))
        (addi s (broadcastInDim S1600000 ![] bcast_S_S1600000 (constantI S_ 32 100000#32))) s))

/-- For every node the sum of the rows of u over the edges whose end point names it, from an array of zero words. -/
def scatterRows (d : EdgeEnds) (u : Edges) : Nodes :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d) u

/-- One layer: every edge weighs its source row by the dot product of its two end rows, every node sums the weighed
    rows of the edges that end at it, and the sums go through the transposed weights and the clamp at zero. -/
def layer (h : Nodes) (s d : EdgeEnds) (W : Weights) : Nodes :=
  productRelu (m := 100000) (k := 64) (n := 64)
    (scatterRows d (rowDotScale (a := 1600000) (b := 64) (gatherRows h s) (gatherRows h d)))
    (transpose S64x64 [1, 0] W transposes_S64x64_S64x64_1_0)

variable (m : (ℓ : Loc nD τ sig) → Buf (Elt Ideal) ℓ) (ρ : Dev nD → PrngReg)

/-- A host stretch leaves a buffer that none of its operations writes as it found it. -/
local macro "stretch_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The argument arrays, read back from inside the program -/

theorem keep0_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  stretch_keeps hostOps0
theorem keep0_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  stretch_keeps hostOps0
theorem keep0_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  stretch_keeps hostOps0
theorem keep0_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  stretch_keeps hostOps0

theorem keep2_arg1 (c : Dev nD) : W2 m ρ c (Proc.devRef .tc main_arg1) = m ((c : Thread nD τ).loc main_arg1) :=
  (W2_of_ne m ρ c main_arg1 (by decide)).trans (keep0_arg1 m ρ c)
theorem keep2_arg2 (c : Dev nD) : W2 m ρ c (Proc.devRef .tc main_arg2) = m ((c : Thread nD τ).loc main_arg2) :=
  (W2_of_ne m ρ c main_arg2 (by decide)).trans (keep0_arg2 m ρ c)
theorem keep2_arg3 (c : Dev nD) : W2 m ρ c (Proc.devRef .tc main_arg3) = m ((c : Thread nD τ).loc main_arg3) :=
  (W2_of_ne m ρ c main_arg3 (by decide)).trans (keep0_arg3 m ρ c)
theorem keep2_arg4 (c : Dev nD) : W2 m ρ c (Proc.devRef .tc main_arg4) = m ((c : Thread nD τ).loc main_arg4) :=
  (W2_of_ne m ρ c main_arg4 (by decide)).trans (keep0_arg4 m ρ c)

theorem keep3_arg1 (c : Dev nD) : W3 m ρ c (Proc.devRef .tc main_arg1) = W2 m ρ c (Proc.devRef .tc main_arg1) := by
  show StableHlo.after hostOps1 (W2 m ρ c) (Proc.devRef .tc main_arg1) = _
  stretch_keeps hostOps1
theorem keep3_arg2 (c : Dev nD) : W3 m ρ c (Proc.devRef .tc main_arg2) = W2 m ρ c (Proc.devRef .tc main_arg2) := by
  show StableHlo.after hostOps1 (W2 m ρ c) (Proc.devRef .tc main_arg2) = _
  stretch_keeps hostOps1
theorem keep3_arg4 (c : Dev nD) : W3 m ρ c (Proc.devRef .tc main_arg4) = W2 m ρ c (Proc.devRef .tc main_arg4) := by
  show StableHlo.after hostOps1 (W2 m ρ c) (Proc.devRef .tc main_arg4) = _
  stretch_keeps hostOps1

theorem keep4_arg1 (c : Dev nD) : W4 m ρ c (Proc.devRef .tc main_arg1) = m ((c : Thread nD τ).loc main_arg1) :=
  (W4_of_ne m ρ c main_arg1 (by decide)).trans ((keep3_arg1 m ρ c).trans (keep2_arg1 m ρ c))
theorem keep4_arg2 (c : Dev nD) : W4 m ρ c (Proc.devRef .tc main_arg2) = m ((c : Thread nD τ).loc main_arg2) :=
  (W4_of_ne m ρ c main_arg2 (by decide)).trans ((keep3_arg2 m ρ c).trans (keep2_arg2 m ρ c))
theorem keep4_arg4 (c : Dev nD) : W4 m ρ c (Proc.devRef .tc main_arg4) = m ((c : Thread nD τ).loc main_arg4) :=
  (W4_of_ne m ρ c main_arg4 (by decide)).trans ((keep3_arg4 m ρ c).trans (keep2_arg4 m ρ c))

theorem keep5_arg2 (c : Dev nD) : W5 m ρ c (Proc.devRef .tc main_arg2) = W4 m ρ c (Proc.devRef .tc main_arg2) := by
  show StableHlo.after hostOps2 (W4 m ρ c) (Proc.devRef .tc main_arg2) = _
  stretch_keeps hostOps2
theorem keep5_arg4 (c : Dev nD) : W5 m ρ c (Proc.devRef .tc main_arg4) = W4 m ρ c (Proc.devRef .tc main_arg4) := by
  show StableHlo.after hostOps2 (W4 m ρ c) (Proc.devRef .tc main_arg4) = _
  stretch_keeps hostOps2

theorem keep6_arg2 (c : Dev nD) : W6 m ρ c (Proc.devRef .tc main_arg2) = m ((c : Thread nD τ).loc main_arg2) :=
  (W6_of_ne m ρ c main_arg2 (by decide)).trans ((keep5_arg2 m ρ c).trans (keep4_arg2 m ρ c))
theorem keep6_arg4 (c : Dev nD) : W6 m ρ c (Proc.devRef .tc main_arg4) = m ((c : Thread nD τ).loc main_arg4) :=
  (W6_of_ne m ρ c main_arg4 (by decide)).trans ((keep5_arg4 m ρ c).trans (keep4_arg4 m ρ c))

/-! ## Layer one -/

set_option maxHeartbeats 2000000 in
/-- The first stretch gathers the source rows of the input features. -/
theorem sources1 (c : Dev nD) : V1 m ρ c main_v6
    = gatherRows (m ((c : Thread nD τ).loc main_arg0)) (m ((c : Thread nD τ).loc main_arg1)) := by
  show StableHlo.after hostOps0 (W0 m ρ c) (Proc.devRef .tc main_v6) = _
  after_results
  rfl

set_option maxHeartbeats 2000000 in
/-- … and the destination rows. -/
theorem dests1 (c : Dev nD) : V1 m ρ c main_v13
    = gatherRows (m ((c : Thread nD τ).loc main_arg0)) (m ((c : Thread nD τ).loc main_arg2)) := by
  show StableHlo.after hostOps0 (W0 m ρ c) (Proc.devRef .tc main_v13) = _
  after_results
  rfl

/-- The first kernel leaves the weighed source rows. -/
theorem weighed1 (c : Dev nD) : V2 m ρ c main_v14
    = rowDotScale (a := 1600000) (b := 64) (V1 m ρ c main_v6) (V1 m ρ c main_v13) :=
  (W2_arr m ρ c 2).trans (edge_final0 (V1 m ρ) c)

/-- The second stretch sums them into their destination nodes … -/
theorem summed1 (c : Dev nD) : V3 m ρ c main_v17
    = scatterRows (m ((c : Thread nD τ).loc main_arg2)) (V2 m ρ c main_v14) := by
  show StableHlo.after hostOps1 (W2 m ρ c) (Proc.devRef .tc main_v17) = _
  after_results
  rw [keep2_arg2]
  rfl

/-- … and transposes the first weight array. -/
theorem weights1 (c : Dev nD) : V3 m ρ c main_v18
    = transpose S64x64 [1, 0] (m ((c : Thread nD τ).loc main_arg3)) transposes_S64x64_S64x64_1_0 := by
  show StableHlo.after hostOps1 (W2 m ρ c) (Proc.devRef .tc main_v18) = _
  after_results
  rw [keep2_arg3]

/-- The second kernel leaves the clamped product. -/
theorem hidden1 (c : Dev nD) : V4 m ρ c main_v19
    = productRelu (m := 100000) (k := 64) (n := 64) (V3 m ρ c main_v17) (V3 m ρ c main_v18) :=
  (W4_arr m ρ c 2).trans (node_final1 (V3 m ρ) c)

/-- So after the second kernel its output is one layer of the arguments. -/
theorem layer1 (c : Dev nD) : V4 m ρ c main_v19
    = layer (m ((c : Thread nD τ).loc main_arg0)) (m ((c : Thread nD τ).loc main_arg1))
        (m ((c : Thread nD τ).loc main_arg2)) (m ((c : Thread nD τ).loc main_arg3)) := by
  rw [hidden1, summed1, weights1, weighed1, sources1, dests1]
  rfl

/-! ## Layer two -/

set_option maxHeartbeats 2000000 in
theorem sources2 (c : Dev nD) : V5 m ρ c main_v26
    = gatherRows (V4 m ρ c main_v19) (m ((c : Thread nD τ).loc main_arg1)) := by
  show StableHlo.after hostOps2 (W4 m ρ c) (Proc.devRef .tc main_v26) = _
  after_results
  rw [keep4_arg1]
  rfl

set_option maxHeartbeats 2000000 in
theorem dests2 (c : Dev nD) : V5 m ρ c main_v33
    = gatherRows (V4 m ρ c main_v19) (m ((c : Thread nD τ).loc main_arg2)) := by
  show StableHlo.after hostOps2 (W4 m ρ c) (Proc.devRef .tc main_v33) = _
  after_results
  rw [keep4_arg2]
  rfl

theorem weighed2 (c : Dev nD) : V6 m ρ c main_v34
    = rowDotScale (a := 1600000) (b := 64) (V5 m ρ c main_v26) (V5 m ρ c main_v33) :=
  (W6_arr m ρ c 2).trans (edge_final2 (V5 m ρ) c)

theorem summed2 (c : Dev nD) : V7 m ρ c main_v37
    = scatterRows (m ((c : Thread nD τ).loc main_arg2)) (V6 m ρ c main_v34) := by
  show StableHlo.after hostOps3 (W6 m ρ c) (Proc.devRef .tc main_v37) = _
  after_results
  rw [keep6_arg2]
  rfl

theorem weights2 (c : Dev nD) : V7 m ρ c main_v38
    = transpose S64x64 [1, 0] (m ((c : Thread nD τ).loc main_arg4)) transposes_S64x64_S64x64_1_0 := by
  show StableHlo.after hostOps3 (W6 m ρ c) (Proc.devRef .tc main_v38) = _
  after_results
  rw [keep6_arg4]

theorem hidden2 (c : Dev nD) : V8 m ρ c main_v39
    = productRelu (m := 100000) (k := 64) (n := 64) (V7 m ρ c main_v37) (V7 m ρ c main_v38) :=
  (W8_arr m ρ c 2).trans (node_final3 (V7 m ρ) c)

/-- The program's result: two layers, the second over the first one's result and the second weight array. -/
theorem result_eq (c : Dev nD) : V8 m ρ c main_v39
    = layer (layer (m ((c : Thread nD τ).loc main_arg0)) (m ((c : Thread nD τ).loc main_arg1))
          (m ((c : Thread nD τ).loc main_arg2)) (m ((c : Thread nD τ).loc main_arg3)))
        (m ((c : Thread nD τ).loc main_arg1)) (m ((c : Thread nD τ).loc main_arg2))
        (m ((c : Thread nD τ).loc main_arg4)) := by
  rw [hidden2, summed2, weights2, weighed2, sources2, dests2, layer1]
  rfl

end Cert.KernelIdeal.Layers

end
-- ==== Proof.ReferenceValue.lean ====
/-
  The reference's result as a function of its arguments.

  The reference computes the same two layers entirely on the host. Its run ends with the result at the composed term
  of its operations; that term is two copies of one spelling of a layer, the second over the first one's result. In
  that spelling the per-edge weighing is a product, a reduce from zero along each row, two broadcasts and a second
  product — the row-scaling function —, and the per-node stage is a dot_general joined with a broadcast of the zero
  word — the clamped product. Gathers and scatter-adds are carried as they are printed, never opened.
-/
import proofs.«123028_j68951404970016_1_alg».proof.Proof.Gen.ReferenceIdeal.Run
import proofs.«123028_j68951404970016_1_alg».proof.Proof.LibRowDotScale
import proofs.«123028_j68951404970016_1_alg».proof.Proof.LibProductRelu

set_option maxRecDepth 16384

noncomputable section

namespace Cert.ReferenceIdeal.Layers

open Idealize.ShloMosaic Idealize.ShloMosaic.TcCoe Idealize.ShloMosaic.ValueIdx Idealize.SL.Sem
open Cert.ReferenceIdeal Cert.ReferenceIdeal.Gen Cert.Lib.RowDotScale Cert.Lib.ProductRelu

/-- Node features, edge features, edge end points and weights, as the program's buffers hold them. -/
abbrev Nodes := FVec Ideal S100000x64 .f32
abbrev Edges := FVec Ideal S1600000x64 .f32
abbrev EdgeEnds := (⟨S1600000, .i32⟩ : BufTy).Contents (Elt Ideal)
abbrev Weights := FVec Ideal S64x64 .f32

/-- For every edge the feature row of the node its end point names, a negative end point first moved up by the number
    of nodes. -/
def gatherRows (h : Nodes) (s : EdgeEnds) : Edges :=
  Host.gather gather_S100000x64_S1600000x1_S1600000x64_1_0_n_n_0_1_164 h
    (broadcastInDim S1600000x1 ![0] bcast_S1600000_S1600000x1_0
      (select (cmpi .slt s (broadcastInDim S1600000 ![] bcast_S_S1600000 (constantI S_ 32 0#32)))
        (addi s (broadcastInDim S1600000 ![] bcast_S_S1600000 (constantI S_ 32 100000#32))) s))

/-- For every node the sum of the rows of u over the edges whose end point names it, from an array of zero words. -/
def scatterRows (d : EdgeEnds) (u : Edges) : Nodes :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d) u

/-- One layer: every edge weighs its source row by the dot product of its two end rows, every node sums the weighed
    rows of the edges that end at it, and the sums go through the transposed weights and the clamp at zero. -/
def layer (h : Nodes) (s d : EdgeEnds) (W : Weights) : Nodes :=
  productRelu (m := 100000) (k := 64) (n := 64)
    (scatterRows d (rowDotScale (a := 1600000) (b := 64) (gatherRows h s) (gatherRows h d)))
    (transpose S64x64 [1, 0] W transposes_S64x64_S64x64_1_0)

/-- One layer as the reference spells it. -/
def layerSpelt (h : Nodes) (s d : EdgeEnds) (W : Weights) : Nodes :=
  maximumf
    (Host.dotGeneral dot_S100000x64_S64x64_S100000x64_1_0_0_1_n_n none
      (scatterRows d
        (mulf (gatherRows h s)
          (broadcastInDim S1600000x64 ![0, 1] bcast_S1600000x1_S1600000x64_0_1
            (broadcastInDim S1600000x1 ![0] bcast_S1600000_S1600000x1_0
              (Host.reduceAdd (mulf (gatherRows h s) (gatherRows h d)) (constant (F := Ideal) S_ .f32 0x00000000#32)
                reducesTo_S1600000x64_S1600000_d1 h_S_)))))
      (transpose S64x64 [1, 0] W transposes_S64x64_S64x64_1_0))
    (broadcastInDim S100000x64 ![] bcast_S_S100000x64 (constant (F := Ideal) S_ .f32 0x00000000#32))

/-- The spelling is the layer: its weighing is the row-scaling function and its last stage the clamped product. -/
theorem layerSpelt_eq (h : Nodes) (s d : EdgeEnds) (W : Weights) : layerSpelt h s d W = layer h s d W := by
  unfold layerSpelt layer
  rw [Cert.Lib.ProductRelu.host_eq (m := 100000) (k := 64) (n := 64)
      dot_S100000x64_S64x64_S100000x64_1_0_0_1_n_n rfl rfl rfl rfl rfl rfl none _ _ bcast_S_S100000x64,
    Cert.Lib.RowDotScale.host_eq (a := 1600000) (b := 64) (gatherRows h s) (gatherRows h d)
      reducesTo_S1600000x64_S1600000_d1 h_S_ bcast_S1600000_S1600000x1_0 bcast_S1600000x1_S1600000x64_0_1]

variable (m : (ℓ : Loc nD τ sig) → Buf (Elt Ideal) ℓ)

/-- The run's term is two spelt layers, the second over the first one's result and the second weight array. -/
theorem term_eq (c : Dev nD) : Value.res_main_v49 m c
    = layerSpelt (layerSpelt (m ((c.tc : Thread nD τ).loc main_arg0)) (m ((c.tc : Thread nD τ).loc main_arg1))
          (m ((c.tc : Thread nD τ).loc main_arg2)) (m ((c.tc : Thread nD τ).loc main_arg3)))
        (m ((c.tc : Thread nD τ).loc main_arg1)) (m ((c.tc : Thread nD τ).loc main_arg2))
        (m ((c.tc : Thread nD τ).loc main_arg4)) := by
  unfold Value.res_main_v49
  rfl

/-- The reference's result: two layers. -/
theorem result_eq (c : Dev nD) : Value.res_main_v49 m c
    = layer (layer (m ((c.tc : Thread nD τ).loc main_arg0)) (m ((c.tc : Thread nD τ).loc main_arg1))
          (m ((c.tc : Thread nD τ).loc main_arg2)) (m ((c.tc : Thread nD τ).loc main_arg3)))
        (m ((c.tc : Thread nD τ).loc main_arg1)) (m ((c.tc : Thread nD τ).loc main_arg2))
        (m ((c.tc : Thread nD τ).loc main_arg4)) := by
  rw [term_eq, layerSpelt_eq, layerSpelt_eq]

end Cert.ReferenceIdeal.Layers

end
-- ==== Proof.lean ====
/-
  A two-layer graph network: the kernel program against its reference, over the extended reals.

  Both programs compute, twice over, one layer: every edge takes the feature rows of its two end points and weighs its
  source row by their dot product; every node sums the weighed rows of the edges that end at it; the sums are
  multiplied by the transposed weights and clamped at zero. The reference does all of it on the host. The kernel
  program leaves the gathers and the sums to the host too, and runs the per-edge weighing and the per-node product in
  two pipelined kernels, block by block over the edges and over the nodes. On the extended reals a sum may be taken in
  any order and a change of float format is the identity, so each kernel's output array is the same whole-array
  function the reference's host operations spell (a row scaled by a dot product; a product clamped at the zero word),
  the gathers and scatter-adds are the same operations of the same operands on both sides, and the two results are
  equal entry by entry. No step uses that the inputs are finite. The idealization rewrote nothing, so the fourth
  conjunct is trivial; the two kernel programs' frames are the generated ones and the reference's frame is its
  generated run with the result dropped.
-/
import proofs.«123028_j68951404970016_1_alg».proof.Defs
import proofs.«123028_j68951404970016_1_alg».proof.Proof.Gen.Kernel
import proofs.«123028_j68951404970016_1_alg».proof.Proof.Gen.Kernel.Skeleton
import proofs.«123028_j68951404970016_1_alg».proof.Proof.Gen.Kernel.Launch
import proofs.«123028_j68951404970016_1_alg».proof.Proof.Gen.Kernel.Points
import proofs.«123028_j68951404970016_1_alg».proof.Proof.Gen.Kernel.Frame
import proofs.«123028_j68951404970016_1_alg».proof.Proof.Gen.KernelIdeal
import proofs.«123028_j68951404970016_1_alg».proof.Proof.Gen.KernelIdeal.Skeleton
import proofs.«123028_j68951404970016_1_alg».proof.Proof.Gen.KernelIdeal.Launch
import proofs.«123028_j68951404970016_1_alg».proof.Proof.Gen.KernelIdeal.Points
import proofs.«123028_j68951404970016_1_alg».proof.Proof.Gen.KernelIdeal.Frame
import proofs.«123028_j68951404970016_1_alg».proof.Proof.Gen.ReferenceIdeal
import proofs.«123028_j68951404970016_1_alg».proof.Proof.Gen.ReferenceIdeal.Run
import proofs.«123028_j68951404970016_1_alg».proof.Proof.Gen.Pre_finite_inputs
import proofs.«123028_j68951404970016_1_alg».proof.Proof.ProgramRun
import proofs.«123028_j68951404970016_1_alg».proof.Proof.ProgramValue
import proofs.«123028_j68951404970016_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the idealized kernel program. -/
theorem frame_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- One layer is the same function whichever program's shape records spell it. -/
theorem layer_agree (h : Cert.KernelIdeal.Layers.Nodes) (s d : Cert.KernelIdeal.Layers.EdgeEnds)
    (W : Cert.KernelIdeal.Layers.Weights) :
    Cert.ReferenceIdeal.Layers.layer h s d W = Cert.KernelIdeal.Layers.layer h s d W := rfl

/-- From memories that agree on the five arguments both programs end with two layers of the arguments. -/
theorem algebraic : Cert.algebraic_KernelIdeal_ReferenceIdeal := by
  intro m ρ m' ρ' _ hagree
  refine ⟨fun c => Cert.KernelIdeal.Layers.layer
      (Cert.KernelIdeal.Layers.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Layers.result_eq m ρ c), (h c).2⟩)
      (Cert.KernelIdeal.Layers.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Layers.result_eq, (hagree c).1, (hagree c).2.1, (hagree c).2.2.1, (hagree c).2.2.2.1,
      (hagree c).2.2.2.2, layer_agree, layer_agree]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
